-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S2048x768 : Shape := ⟨2, ![2048, 768]⟩
abbrev S1024x768 : Shape := ⟨2, ![1024, 768]⟩
abbrev S2048x1 : Shape := ⟨2, ![2048, 1]⟩
abbrev S2048x128 : Shape := ⟨2, ![2048, 128]⟩
abbrev S2048x1024 : Shape := ⟨2, ![2048, 1024]⟩
abbrev S2048x8x128 : Shape := ⟨3, ![2048, 8, 128]⟩
abbrev S2048 : Shape := ⟨1, ![2048]⟩

abbrev nBuf : Space → Nat
  | .hbm => 24
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x768, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x768, .bf16⟩
  | .hbm, ⟨18, _⟩ => ⟨S8192x768, .f32⟩
  | .hbm, ⟨19, _⟩ => ⟨S8192x768, .f32⟩
  | .hbm, ⟨20, _⟩ => ⟨S8192x768, .bf16⟩
  | .hbm, ⟨21, _⟩ => ⟨S8192x1, .f32⟩
  | .hbm, ⟨22, _⟩ => ⟨S8192, .f32⟩
  | .hbm, ⟨23, _⟩ => ⟨S8192, .f32⟩
  | .local _ .vmem, ⟨0, _⟩ => ⟨S2048x768, .bf16⟩
  | .local _ .vmem, ⟨1, _⟩ => ⟨S2048x768, .bf16⟩
  | .local _ .vmem, ⟨2, _⟩ => ⟨S1024x768, .bf16⟩
  | .local _ .vmem, ⟨3, _⟩ => ⟨S1024x768, .bf16⟩
  | .local _ .vmem, ⟨4, _⟩ => ⟨S2048x1, .f32⟩
  | .local _ .vmem, ⟨5, _⟩ => ⟨S2048x1, .f32⟩
  | .local _ .vmem, ⟨6, _⟩ => ⟨S2048x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x768_S8192_d1 : S8192x768.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bitsLt_bf16_f32 : FTy.bits .bf16 < FTy.bits .f32
  bcast_S8192x1_S8192x768_0_1 : S8192x1.BroadcastsInDim S8192x768 (![0, 1] : Fin 2 → Fin S8192x768.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  shapeCasts_S2048x1024_S2048x8x128 : S2048x1024.ShapeCasts S2048x8x128
  reduces_S2048x8x128_S2048x128 : S2048x8x128.Reduces [1] S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  dot_S2048x768_S1024x768_S2048x1024_1_1_0_0_n_n_wf : DotDims.WF S2048x768 S1024x768 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .bf16 = 32 ∨ (Rect.block (s := S8192x768) S2048x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x768_S1024x768_S2048x1024_1_1_0_0_n_n : DotDims S2048x768 S1024x768 S2048x1024 where
  lhsContracting := [1]
  rhsContracting := [1]
  lhsNonContracting := [0]
  rhsNonContracting := [0]
  lhsBatch := []
  rhsBatch := []
  wf := dot_S2048x768_S1024x768_S2048x1024_1_1_0_0_n_n_wf

abbrev win0_0 : Pipeline.Window sig grid0 :=
  Pipeline.Window.ofSpec (Memref.whole main_v6) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x768, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S8192x8192, .f32⟩
  | .hbm, ⟨23, _⟩ => ⟨S_, .f32⟩
  | .hbm, ⟨24, _⟩ => ⟨S8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  reducesTo_S8192x8192_S8192_d1 : S8192x8192.ReducesTo [1] S8192
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.Pieces.lean ====
/-
  What each control case of the body leaves, as the body's stored values.

  At the first column tile of a row tile the scratch accumulator ends at the update of the reset value; at every
  later tile at the update of what the tile before left; and at the last tile the output block is the lane maximum
  of that updated accumulator.  Each is the case's one covering store read back, its loads reading whole buffers.
-/
import proofs.«124851_j31258771980987_2_alg».proof.Proof.Gen.KernelIdeal.Frame
import Idealize.ShloMosaic.Lib.Pipeline.Value
import Idealize.ShloMosaic.Lib.Tactic

noncomputable section

namespace Cert.KernelIdeal.RowMax

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First column tile: the accumulator is reset, then updated. -/
theorem acc_first (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x128 .f32) (harg5 : arg5.IsWhole) (hc0 : cond0_0 i) (hc1 : ¬cond0_1 i)
    (x0 : Vec F S2048x768 .bf16) (x1 : Vec F S1024x768 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2048x128) hz, View.readCov_unit_zero (S := S2048x128) _ hz]
  simp only [View.readAt_eq_ld, harg2.read_unread, harg3.read_unread, View.ld_unit_zero (S := S2048x768) hz,
    View.ld_unit_zero (S := S1024x768) hz]

/-- A middle column tile: the accumulator the tile before left, updated. -/
theorem acc_middle (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x128 .f32) (harg5 : arg5.IsWhole) (hc0 : ¬cond0_0 i) (hc1 : ¬cond0_1 i)
    (x0 : Vec F S2048x768 .bf16) (x1 : Vec F S1024x768 .bf16) (xs0 : Vec F S2048x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S2048x768) hz,
    View.ld_unit_zero (S := S1024x768) hz, View.ld_unit_zero (S := S2048x128) hz]

/-- The last column tile updates the accumulator the same way. -/
theorem acc_last (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x128 .f32) (harg5 : arg5.IsWhole) (hc0 : ¬cond0_0 i) (hc1 : cond0_1 i)
    (x0 : Vec F S2048x768 .bf16) (x1 : Vec F S1024x768 .bf16) (xs0 : Vec F S2048x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S2048x768) hz,
    View.ld_unit_zero (S := S1024x768) hz, View.ld_unit_zero (S := S2048x128) hz]

/-- The last column tile: the output block is the lane maximum of the updated accumulator. -/
theorem out_last (c : Dev nD) (i : grid0.Coords) (arg2 : Memref sig .tc .vmem S2048x768 .bf16) (harg2 : arg2.IsWhole) (arg3 : Memref sig .tc .vmem S1024x768 .bf16) (harg3 : arg3.IsWhole) (arg4 : Memref sig .tc .vmem S2048x1 .f32) (harg4 : arg4.IsWhole) (arg5 : Memref sig .tc .vmem S2048x128 .f32) (harg5 : arg5.IsWhole) (hc0 : ¬cond0_0 i) (hc1 : cond0_1 i)
    (x0 : Vec F S2048x768 .bf16) (x1 : Vec F S1024x768 .bf16) (xs0 : Vec F S2048x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S2048x128) _ hz]
  simp only [View.readAt_eq_ld, harg2.read_unread, harg3.read_unread, harg5.read_unread, View.ld_unit_zero (S := S2048x768) hz,
    View.ld_unit_zero (S := S1024x768) hz, View.ld_unit_zero (S := S2048x128) hz]

end Cert.KernelIdeal.RowMax

end
-- ==== Proof.Consts.lean ====
/-
  The two float patterns whose values the proof uses: the running maximum starts from `-∞`, the bottom of the
  extended reals, and the norm's floor `ε` (the f32 nearest to 1e-8) is a positive real.
-/
import Idealize.ShloMosaic.PureOps.Ideal

noncomputable section

namespace Cert.Consts

open Idealize.ShloMosaic

/-- The pattern of `-∞` denotes `⊥`. -/
theorem ofBits_neg_inf : Ideal.ofBits .f32 0xFF800000#32 = ⊥ := by
  simp [Ideal.ofBits, Ideal.ieee]

/-- The norm's floor `ε` is positive. -/
theorem eps_pos : (0 : EReal) < Ideal.ofBits .f32 0x322BCC77#32 := by
  simp [Ideal.ofBits, Ideal.ieee, -EReal.coe_mul]

end Cert.Consts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The body's three stored values, read at an index on the extended reals.

  * the reset value is `-∞ = ⊥` everywhere;
  * the accumulator update at (r, l) is the maximum of the old accumulator there and, over the eight groups g of
    128 columns, of the inner products of row r of the left block with row g·128 + l of the right block
    (the [2048, 1024] product regrouped as [2048, 8, 128] and reduced over the groups);
  * the final value at row r is the maximum over the 128 lanes of the accumulator.
-/
import proofs.«124851_j31258771980987_2_alg».proof.Proof.Gen.KernelIdeal.Skeleton
import proofs.«124851_j31258771980987_2_alg».proof.Proof.Consts
import proofs.«124851_j31258771980987_2_alg».proof.Proof.LibKeepdims
import Idealize.ShloMosaic.PureOps.Ideal.Laws
import Idealize.ShloMosaic.Lib.ValueIdx
import Idealize.ShloMosaic.Lib.Pipeline.Value

noncomputable section

namespace Cert.KernelIdeal.RowMax

open Cert.KernelIdeal Cert.KernelIdeal.Gen Idealize.ShloMosaic Idealize.ShloMosaic.ValueIdx Finset

/-- Column g·128 + l of a 1024-column tile. -/
abbrev tcol (g : Fin 8) (l : Fin 128) : Fin 1024 := ⟨g.val * 128 + l.val, by have := g.isLt; have := l.isLt; omega⟩

local notation "D" => dot_S2048x768_S1024x768_S2048x1024_1_1_0_0_n_n

theorem lhs_0 (i : S2048x1024.Idx) (q : (D).contr.Idx) : ((D).lhsIdx i q 0).val = (i 0).val := by
  unfold DotDims.lhsIdx
  rw [dif_neg (show ¬(0 : Fin S2048x768.rank) ∈ (D).lhsBatch by decide), dif_pos (show (0 : Fin S2048x768.rank) ∈ (D).lhsNonContracting by decide)]
  rfl
theorem lhs_1 (i : S2048x1024.Idx) (q : (D).contr.Idx) : ((D).lhsIdx i q 1).val = (q ⟨0, by decide⟩).val :=
  (D).lhsIdx_val_of_single rfl i q
theorem rhs_0 (i : S2048x1024.Idx) (q : (D).contr.Idx) : ((D).rhsIdx i q 0).val = (i 1).val := by
  unfold DotDims.rhsIdx
  rw [dif_neg (show ¬(0 : Fin S1024x768.rank) ∈ (D).rhsBatch by decide), dif_pos (show (0 : Fin S1024x768.rank) ∈ (D).rhsNonContracting by decide)]
  rfl
theorem rhs_1 (i : S2048x1024.Idx) (q : (D).contr.Idx) : ((D).rhsIdx i q 1).val = (q ⟨0, by decide⟩).val :=
  (D).rhsIdx_val_of_single rfl i q

/-- The product of a [2048, 768] block and a [1024, 768] block, contracted over their second axes into a zero
    accumulator, at (r, cc): the inner product of row r and row cc. -/
theorem product_apply (v3 : FVec Ideal S2048x768 .bf16) (v5 : FVec Ideal S1024x768 .bf16) (r : Fin 2048) (cc : Fin 1024) :
    matmul D none v3 v5 (constant S2048x1024 .f32 0x00000000#32) (ix2 r cc) = ∑ k : Fin 768, v3 (ix2 r k) * v5 (ix2 cc k) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : (D).lhsIdx (ix2 r cc) ((contrEquiv1 D 768 rfl rfl).symm k) = ix2 r k := funext fun a => Fin.ext (by
    match a with
    | ⟨0, _⟩ => exact lhs_0 _ _
    | ⟨1, _⟩ => exact (lhs_1 _ _).trans hk)
  have er : (D).rhsIdx (ix2 r cc) ((contrEquiv1 D 768 rfl rfl).symm k) = ix2 cc k := funext fun a => Fin.ext (by
    match a with
    | ⟨0, _⟩ => exact rhs_0 _ _
    | ⟨1, _⟩ => exact (rhs_1 _ _).trans hk)
  rw [el, er]

/-- A [2048, 1024] array regrouped as [2048, 8, 128] reads, at (r, g, l), column g·128 + l of row r. -/
theorem grouped_apply {α : Type} (x : S2048x1024.Idx → α) (h : S2048x1024.ShapeCasts S2048x8x128) (r : Fin 2048) (g : Fin 8) (l : Fin 128) :
    shapeCast S2048x8x128 x h (ix3 r g l) = x (ix2 r (tcol g l)) :=
  shapeCast_apply x h _ _ (by
    rw [Shape.rowMajor_val_two, Shape.rowMajor_val_three]
    show r.val * 1024 + (g.val * 128 + l.val) = (r.val * 8 + g.val) * 128 + l.val
    omega)

/-- The maximum over the eight groups, at (r, l). -/
theorem groupMax_apply (y : FVec Ideal S2048x8x128 .f32) (h : S2048x8x128.Reduces [1] S2048x128) (hφ : FKind.Formats .f32)
    (hacc : (0xFF800000#32 : BitVec 32) = FKind.maximumf.neutral .f32 hφ) (r : Fin 2048) (l : Fin 128) :
    multiReduction .maximumf [1] S2048x128 y 0xFF800000#32 h hφ hacc (ix2 r l)
      = (univ : Finset (Fin 8)).fold max ⊥ fun g => y (ix3 r g l) := by
  rw [Ideal.multiReduction_maximumf_single]
  show (univ : Finset (Fin 8)).fold max (Ideal.ofBits .f32 0xFF800000#32) _ = _
  rw [Cert.Consts.ofBits_neg_inf]
  refine congrArg (fun f => (univ : Finset (Fin 8)).fold max ⊥ f) (funext fun g => congrArg y (funext fun a => Fin.ext ?_))
  match a with
  | ⟨0, _⟩ => rfl
  | ⟨1, _⟩ => rfl
  | ⟨2, _⟩ => rfl

/-- The maximum over the 128 lanes, at row r. -/
theorem laneMax_apply (y : FVec Ideal S2048x128 .f32) (h : S2048x128.Reduces [1] S2048) (hφ : FKind.Formats .f32)
    (hacc : (0xFF800000#32 : BitVec 32) = FKind.maximumf.neutral .f32 hφ) (r : Fin 2048) :
    multiReduction .maximumf [1] S2048 y 0xFF800000#32 h hφ hacc (ix1 r)
      = (univ : Finset (Fin 128)).fold max ⊥ fun l => y (ix2 r l) := by
  rw [Ideal.multiReduction_maximumf_single]
  show (univ : Finset (Fin 128)).fold max (Ideal.ofBits .f32 0xFF800000#32) _ = _
  rw [Cert.Consts.ofBits_neg_inf]
  refine congrArg (fun f => (univ : Finset (Fin 128)).fold max ⊥ f) (funext fun l => congrArg y (funext fun a => Fin.ext ?_))
  match a with
  | ⟨0, _⟩ => rfl
  | ⟨1, _⟩ => rfl

/-- The reset value is `⊥` everywhere. -/
theorem reset_apply (j : S2048x128.Idx) : k0_pay1 (F := Ideal) j = ⊥ := by
  unfold k0_pay1
  simp only [shapeCast_self]
  exact Cert.Consts.ofBits_neg_inf

/-- The accumulator update at (r, l). -/
theorem update_apply (v3 : Vec Ideal S2048x768 .bf16) (v5 : Vec Ideal S1024x768 .bf16) (v10 : Vec Ideal S2048x128 .f32)
    (r : Fin 2048) (l : Fin 128) :
    k0_pay2 v3 v5 v10 (ix2 r l)
      = max (v10 (ix2 r l)) ((univ : Finset (Fin 8)).fold max ⊥ fun g => ∑ k : Fin 768, v3 (ix2 r k) * v5 (ix2 (tcol g l) k)) := by
  unfold k0_pay2
  simp only [shapeCast_self]
  refine (maximumf_apply (s := S2048x128) (φ := .f32) v10 _ (ix2 r l)).trans ?_
  refine congrArg (max (v10 (ix2 r l))) ?_
  refine (groupMax_apply _ _ _ _ r l).trans ?_
  refine congrArg (fun f => (univ : Finset (Fin 8)).fold max ⊥ f) (funext fun g => ?_)
  refine (grouped_apply _ _ r g l).trans ?_
  exact product_apply v3 v5 r (tcol g l)

/-- The final value at row r (the unit column coordinate is immaterial). -/
theorem final_apply (v18 : Vec Ideal S2048x128 .f32) (r : Fin 2048) (u : Fin 1) :
    k0_pay3 v18 (ix2 r u) = (univ : Finset (Fin 128)).fold max ⊥ fun l => v18 (ix2 r l) := by
  unfold k0_pay3
  show shapeCast S2048x1 _ _ (ix2 r u) = _
  rw [Cert.LibKeepdims.shapeCast_a_a1_apply]
  exact laneMax_apply _ _ _ _ r

end Cert.KernelIdeal.RowMax

end
-- ==== Proof.LibScaledMax.lean ====
/-
  Scaling a row maximum of inner products by a nonnegative factor, on the extended reals.

  For a factor `c` with `0 ≤ c` and `c ≠ ⊤`, multiplication by `c` distributes over every finite sum of extended
  reals (no finiteness of the summands is needed) and is monotone, so it commutes with a maximum taken over a
  nonempty finite index set, also when that maximum is folded from `⊥`.  Together:
      (max_j ∑_k a_k · b_{j,k}) · c = max_j ∑_k (a_k · c) · b_{j,k}.
-/
import Mathlib.Data.EReal.Basic
import Mathlib.Data.EReal.Operations
import Mathlib.Data.EReal.Inv
import Mathlib.Data.Finset.Fold
import Mathlib.Algebra.BigOperators.Group.Finset.Basic

noncomputable section

namespace Cert.LibScaledMax

open Finset

/-- A nonnegative factor other than `⊤` distributes over a finite sum of extended reals. -/
theorem sum_mul_of_nonneg {K : Type*} (s : Finset K) (t : K → EReal) {c : EReal} (hc : 0 ≤ c) (hc' : c ≠ ⊤) :
    (∑ k ∈ s, t k) * c = ∑ k ∈ s, t k * c := by
  classical
  induction s using Finset.induction_on with
  | empty => simp
  | insert a s ha ih =>
    rw [Finset.sum_insert ha, Finset.sum_insert ha, EReal.right_distrib_of_nonneg_of_ne_top hc hc', ih]

/-- Scaling the left factors of an inner product scales the inner product. -/
theorem inner_scaled {K : Type*} [Fintype K] (a b : K → EReal) {c : EReal} (hc : 0 ≤ c) (hc' : c ≠ ⊤) :
    ∑ k, (a k * c) * b k = (∑ k, a k * b k) * c := by
  rw [sum_mul_of_nonneg _ _ hc hc']
  exact Finset.sum_congr rfl fun k _ => mul_right_comm _ _ _

/-- A maximum folded from `b` is the maximum of `b` and the one folded from `⊥`: when some entry dominates `b`,
    the starting value does not matter. -/
theorem fold_max_start {J : Type*} (s : Finset J) (g : J → EReal) (b : EReal) (j₀ : J) (hj₀ : j₀ ∈ s) (hb : b ≤ g j₀) :
    s.fold max b g = s.fold max ⊥ g := by
  refine eq_of_forall_ge_iff fun d => ?_
  rw [Finset.fold_max_le, Finset.fold_max_le]
  exact ⟨fun h => ⟨bot_le, h.2⟩, fun h => ⟨hb.trans (h.2 j₀ hj₀), h.2⟩⟩

/-- Multiplication by a nonnegative factor commutes with a maximum over a nonempty finite index set folded from `⊥`. -/
theorem fold_max_mul {J : Type*} [Fintype J] [Nonempty J] (f : J → EReal) {c : EReal} (hc : 0 ≤ c) :
    (univ.fold max ⊥ f) * c = univ.fold max ⊥ fun j => f j * c := by
  have hmono : Monotone fun x : EReal => x * c := fun x y h => mul_le_mul_of_nonneg_right h hc
  have hm : ∀ x y : EReal, max x y * c = max (x * c) (y * c) := fun x y => hmono.map_max
  rw [← Finset.fold_hom (op := max) (op' := max) (m := fun x : EReal => x * c) hm]
  obtain ⟨j₀⟩ := ‹Nonempty J›
  exact fold_max_start _ _ _ j₀ (mem_univ _) (hmono bot_le)

/-- THE LAW: scaling a row maximum of inner products by `c` is the row maximum of the inner products of the scaled row. -/
theorem rowmax_scaled {J K : Type*} [Fintype J] [Nonempty J] [Fintype K] (a : K → EReal) (b : J → K → EReal)
    {c : EReal} (hc : 0 ≤ c) (hc' : c ≠ ⊤) :
    (univ.fold max ⊥ fun j => ∑ k, a k * b j k) * c = univ.fold max ⊥ fun j => ∑ k, (a k * c) * b j k := by
  rw [fold_max_mul _ hc]
  exact congrArg (fun f => univ.fold max ⊥ f) (funext fun j => (inner_scaled a (b j) hc hc').symm)

end Cert.LibScaledMax

end
-- ==== Proof.Spec.lean ====
/-
  The function both programs compute, index by index, on the extended reals.

  For arrays `x y : [8192, 768]`:  `nrm x i = max (√(0 + ∑_k x[i,k]²)) ε`  (a row's norm, floored at ε),
  `unitRows y` the rows of `y` divided by their floored norms,  `sim A B r c = ∑_k A[r,k] · B[c,k]`  and
  `rowMax A B r = max_c sim A B r c`  (folded from `-∞ = ⊥`).
  The kernel leaves  `rowMax x (unitRows y) i / nrm x i`;  the reference computes  `rowMax (unitRows x) (unitRows y) i`.
  They agree because `nrm x i ≥ ε > 0`: division by it is multiplication by its inverse, a nonnegative factor other
  than `⊤`, which passes through the inner products and through the maximum (LibScaledMax).
-/
import Idealize.ShloMosaic.PureOps.Ideal
import Idealize.ShloMosaic.Lib.ValueIdx
import proofs.«124851_j31258771980987_2_alg».proof.Proof.LibScaledMax
import proofs.«124851_j31258771980987_2_alg».proof.Proof.Consts

noncomputable section

namespace Cert.Spec

open Idealize.ShloMosaic Idealize.ShloMosaic.ValueIdx Finset

/-- An [8192, 768] array of extended reals. -/
abbrev Arr : Type := (⟨2, ![8192, 768]⟩ : Shape).Idx → EReal

/-- The norm's floor. -/
def eps : EReal := Ideal.ofBits .f32 0x322BCC77#32

/-- Row `i`'s norm, floored at ε: `max (√(0 + ∑_k x[i,k]²)) ε`. -/
def nrm (x : Arr) (i : Fin 8192) : EReal :=
  max (Ideal.sqrt (Ideal.ofBits .f32 0x00000000#32 + ∑ k : Fin 768, x (ix2 i k) * x (ix2 i k))) eps

/-- The rows divided by their floored norms. -/
def unitRows (y : Arr) : Arr := fun j => Ideal.div (y j) (nrm y (j 0))

/-- The inner product of row `r` of `A` and row `c` of `B`. -/
def sim (A B : Arr) (r c : Fin 8192) : EReal := ∑ k : Fin 768, A (ix2 r k) * B (ix2 c k)

/-- Row `r`'s maximum inner product with the rows of `B`, folded from `⊥`. -/
def rowMax (A B : Arr) (r : Fin 8192) : EReal := (univ : Finset (Fin 8192)).fold max ⊥ (sim A B r)

/-- What the kernel's program leaves: the raw row maximum divided by the row's floored norm. -/
def kernelOut (x y : Arr) : (⟨1, ![8192]⟩ : Shape).Idx → EReal :=
  fun i => Ideal.div (rowMax x (unitRows y) (i 0)) (nrm x (i 0))

/-- What the reference computes: the row maximum of the cosine matrix. -/
def refOut (x y : Arr) : (⟨1, ![8192]⟩ : Shape).Idx → EReal :=
  fun i => rowMax (unitRows x) (unitRows y) (i 0)

theorem nrm_pos (x : Arr) (i : Fin 8192) : 0 < nrm x i :=
  lt_of_lt_of_le Cert.Consts.eps_pos (le_max_right _ _)

/-- Division by a positive extended real is multiplication by its inverse, a nonnegative factor other than `⊤`. -/
theorem div_pos_eq (v n : EReal) (hn : 0 < n) : Ideal.div v n = v * n⁻¹ := by
  unfold Ideal.div
  rw [if_neg hn.ne']

theorem inv_nonneg_of_pos {n : EReal} (hn : 0 < n) : 0 ≤ n⁻¹ := EReal.inv_nonneg_of_nonneg hn.le

theorem inv_ne_top (n : EReal) : n⁻¹ ≠ ⊤ := (EReal.inv_lt_top n).ne

/-- THE TWO SIDES AGREE, row by row. -/
theorem row_eq (x y : Arr) (r : Fin 8192) :
    Ideal.div (rowMax x (unitRows y) r) (nrm x r) = rowMax (unitRows x) (unitRows y) r := by
  have hn := nrm_pos x r
  rw [div_pos_eq _ _ hn]
  unfold rowMax sim
  rw [Cert.LibScaledMax.rowmax_scaled (fun k => x (ix2 r k)) (fun c k => unitRows y (ix2 c k))
    (inv_nonneg_of_pos hn) (inv_ne_top _)]
  refine congrArg (fun f => univ.fold max ⊥ f) (funext fun c => Finset.sum_congr rfl fun k _ => ?_)
  exact congrArg (· * unitRows y (ix2 c k)) (div_pos_eq (x (ix2 r k)) (nrm x r) hn).symm

theorem kernelOut_eq_refOut (x y : Arr) : kernelOut x y = refOut x y :=
  funext fun i => row_eq x y (i 0)

end Cert.Spec

end
-- ==== Proof.Accum.lean ====
/-
  The running maximum across the column tiles.

  Grid point n works on row tile n / 8 and column tile n % 8.  After it, the accumulator at (r, l) is the maximum,
  over the columns cc of the column tiles 0 … n % 8 that lie in lane l (cc ≡ l mod 128), of the inner product of row
  (n / 8)·2048 + r of A with row cc of B.  Stated by its universal property (being below a bound d), this is
  preserved by the update — the new tile contributes exactly the columns (n % 8)·1024 + g·128 + l, g < 8 — and at
  the last column tile the lane maximum is the maximum over all 8192 columns.
-/
import proofs.«124851_j31258771980987_2_alg».proof.Proof.Payload
import proofs.«124851_j31258771980987_2_alg».proof.Proof.Spec

noncomputable section

namespace Cert.KernelIdeal.RowMax

open Cert.KernelIdeal Cert.KernelIdeal.Gen Idealize.ShloMosaic Idealize.ShloMosaic.ValueIdx Finset
open Cert.Spec (Arr sim rowMax)

/-- The array row that grid point n's row r is. -/
abbrev rowAt (n : ℕ) (r : Fin 2048) : Fin 8192 := ⟨n / 8 % 4 * 2048 + r.val, by have := r.isLt; omega⟩
/-- The array row (of the right operand) that grid point n's tile row cc is. -/
abbrev colAt (n : ℕ) (cc : Fin 1024) : Fin 8192 := ⟨n % 8 * 1024 + cc.val, by have := cc.isLt; omega⟩

/-- The accumulator after grid point n holds, per row and lane, the maximum over the columns seen so far in that lane. -/
def AccInv (A B : Arr) (n : ℕ) (acc : Vec Ideal S2048x128 .f32) : Prop :=
  ∀ (r : Fin 2048) (l : Fin 128) (d : EReal), acc (ix2 r l) ≤ d ↔
    ∀ cc : Fin 8192, cc.val / 1024 ≤ n % 8 → cc.val % 128 = l.val → sim A B (rowAt n r) cc ≤ d

/-- What a tile contributes at (r, l), given that the blocks are the arrays' rows. -/
theorem tile_le_iff (A B : Arr) (n : ℕ) (x0 : Vec Ideal S2048x768 .bf16) (x1 : Vec Ideal S1024x768 .bf16)
    (hx0 : ∀ (r : Fin 2048) (k : Fin 768), x0 (ix2 r k) = A (ix2 (rowAt n r) k))
    (hx1 : ∀ (cc : Fin 1024) (k : Fin 768), x1 (ix2 cc k) = B (ix2 (colAt n cc) k))
    (r : Fin 2048) (l : Fin 128) (d : EReal) :
    ((univ : Finset (Fin 8)).fold max ⊥ fun g => ∑ k : Fin 768, x0 (ix2 r k) * x1 (ix2 (tcol g l) k)) ≤ d ↔
      ∀ g : Fin 8, sim A B (rowAt n r) (colAt n (tcol g l)) ≤ d := by
  rw [Finset.fold_max_le]
  simp only [bot_le, true_and, mem_univ, forall_true_left]
  refine forall_congr' fun g => ?_
  unfold sim
  simp only [hx0, hx1]

/-- First column tile: from the reset value. -/
theorem accInv_first (A B : Arr) (n : ℕ) (hn : n % 8 = 0) (x0 : Vec Ideal S2048x768 .bf16) (x1 : Vec Ideal S1024x768 .bf16)
    (hx0 : ∀ (r : Fin 2048) (k : Fin 768), x0 (ix2 r k) = A (ix2 (rowAt n r) k))
    (hx1 : ∀ (cc : Fin 1024) (k : Fin 768), x1 (ix2 cc k) = B (ix2 (colAt n cc) k)) :
    AccInv A B n (k0_pay2 x0 x1 (k0_pay1 (F := Ideal))) := by
  intro r l d
  rw [update_apply, max_le_iff, reset_apply, tile_le_iff A B n x0 x1 hx0 hx1]
  simp only [bot_le, true_and]
  constructor
  · intro h cc hle hmod
    have hl := l.isLt
    have hcc := cc.isLt
    have e : cc = colAt n (tcol ⟨cc.val / 128, by omega⟩ l) := Fin.ext (by show cc.val = n % 8 * 1024 + (cc.val / 128 * 128 + l.val); omega)
    rw [e]; exact h _
  · intro h g
    have hl := l.isLt
    have hg := g.isLt
    exact h _ (by show (n % 8 * 1024 + (g.val * 128 + l.val)) / 1024 ≤ n % 8; omega)
      (by show (n % 8 * 1024 + (g.val * 128 + l.val)) % 128 = l.val; omega)

/-- A later column tile: from what the tile before left. -/
theorem accInv_next (A B : Arr) (n : ℕ) (hn : (n + 1) % 8 ≠ 0) (x0 : Vec Ideal S2048x768 .bf16) (x1 : Vec Ideal S1024x768 .bf16)
    (hx0 : ∀ (r : Fin 2048) (k : Fin 768), x0 (ix2 r k) = A (ix2 (rowAt (n + 1) r) k))
    (hx1 : ∀ (cc : Fin 1024) (k : Fin 768), x1 (ix2 cc k) = B (ix2 (colAt (n + 1) cc) k))
    (acc : Vec Ideal S2048x128 .f32) (hacc : AccInv A B n acc) :
    AccInv A B (n + 1) (k0_pay2 x0 x1 acc) := by
  intro r l d
  rw [update_apply, max_le_iff, hacc r l d, tile_le_iff A B (n + 1) x0 x1 hx0 hx1]
  have hrow : rowAt (n + 1) r = rowAt n r := Fin.ext (by show (n + 1) / 8 % 4 * 2048 + r.val = n / 8 % 4 * 2048 + r.val; omega)
  rw [hrow]
  have hl := l.isLt
  constructor
  · rintro ⟨h1, h2⟩ cc hle hmod
    have hcc := cc.isLt
    by_cases hc : cc.val / 1024 ≤ n % 8
    · exact h1 cc hc hmod
    · have e : cc = colAt (n + 1) (tcol ⟨cc.val % 1024 / 128, by omega⟩ l) :=
        Fin.ext (by show cc.val = (n + 1) % 8 * 1024 + (cc.val % 1024 / 128 * 128 + l.val); omega)
      rw [e]; exact h2 _
  · intro h
    refine ⟨fun cc hle hmod => h cc (by omega) hmod, fun g => ?_⟩
    have hg := g.isLt
    exact h _ (by show ((n + 1) % 8 * 1024 + (g.val * 128 + l.val)) / 1024 ≤ (n + 1) % 8; omega)
      (by show ((n + 1) % 8 * 1024 + (g.val * 128 + l.val)) % 128 = l.val; omega)

/-- At the last column tile the lane maximum of the accumulator is the row's maximum over all columns. -/
theorem final_of_accInv (A B : Arr) (n : ℕ) (hn : n % 8 = 7) (acc : Vec Ideal S2048x128 .f32) (hacc : AccInv A B n acc)
    (r : Fin 2048) (u : Fin 1) : k0_pay3 acc (ix2 r u) = rowMax A B (rowAt n r) := by
  rw [final_apply]
  unfold rowMax
  refine eq_of_forall_ge_iff fun d => ?_
  rw [Finset.fold_max_le, Finset.fold_max_le]
  simp only [bot_le, true_and, mem_univ, forall_true_left]
  constructor
  · intro h cc
    have hcc := cc.isLt
    exact (hacc r ⟨cc.val % 128, by omega⟩ d).mp (h _) cc (by omega) rfl
  · intro h l
    exact (hacc r l d).mpr fun cc _ _ => h cc

end Cert.KernelIdeal.RowMax

end
-- ==== Proof.Blocks.lean ====
/-
  The windows' blocks as parts of their arrays.

  Grid point t = 8·i + j reads rows i·2048 … i·2048 + 2047 of the left array and rows j·1024 … j·1024 + 1023 of the
  right array, and (at j = 7) writes rows i·2048 … of the [8192, 1] result: the three index maps, decided once over
  the 32 grid points, and a block's coordinate as index × size + the coordinate inside the block.
-/
import proofs.«124851_j31258771980987_2_alg».proof.Proof.Gen.KernelIdeal.Frame
import proofs.«124851_j31258771980987_2_alg».proof.Proof.Accum
import Idealize.ShloMosaic.Lib.Pipeline.Value

noncomputable section

namespace Cert.KernelIdeal.RowMax

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The left operand's block index is (t / 8, 0). -/
theorem idx_lhs : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- The right operand's block index is (t % 8, 0). -/
theorem idx_rhs : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- The result's block index is (t / 8, 0). -/
theorem idx_out : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

theorem lt32 (t : Fin cfg0.N) : t.val < 32 := lt_of_lt_of_eq t.isLt (show cfg0.N = 32 from N_0)

/-- Row r of the left block at point t is row (t / 8)·2048 + r of the left array. -/
theorem lhsBlock_apply (c : Dev nD) (t : Fin cfg0.N) (r : Fin 2048) (k : Fin 768) :
    (iblk m c 0 t : Vec F S2048x768 .bf16) (ix2 r k) = V m c main_v6 (ix2 (rowAt t.val r) k) := by
  have hi := idx_lhs t
  have ht := lt32 t
  unfold iblk
  rw [View.read_apply]
  show V m c main_v6 _ = V m c main_v6 _
  congr 1
  funext a
  apply Fin.ext
  match a with
  | ⟨0, _⟩ => show win0_0.index t (0 : Fin 2) * 2048 + 1 * r.val = t.val / 8 % 4 * 2048 + r.val; rw [hi.1]; omega
  | ⟨1, _⟩ => show win0_0.index t (1 : Fin 2) * 768 + 1 * k.val = k.val; rw [hi.2]; omega

/-- Row cc of the right block at point t is row (t % 8)·1024 + cc of the right array. -/
theorem rhsBlock_apply (c : Dev nD) (t : Fin cfg0.N) (cc : Fin 1024) (k : Fin 768) :
    (iblk m c 1 t : Vec F S1024x768 .bf16) (ix2 cc k) = V m c main_v9 (ix2 (colAt t.val cc) k) := by
  have hi := idx_rhs t
  unfold iblk
  rw [View.read_apply]
  show V m c main_v9 _ = V m c main_v9 _
  congr 1
  funext a
  apply Fin.ext
  match a with
  | ⟨0, _⟩ => show win0_1.index t (0 : Fin 2) * 1024 + 1 * cc.val = t.val % 8 * 1024 + cc.val; rw [hi.1]; omega
  | ⟨1, _⟩ => show win0_1.index t (1 : Fin 2) * 768 + 1 * k.val = k.val; rw [hi.2]; omega

/-- An index of the result array is in point t's block iff each coordinate is in the block's range on its axis. -/
theorem mem_outBlock (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v10).slice (win0_2.rect t)).set ↔ _
  rw [View.set_slice_whole, Rect.mem_set_unit]
  exact Iff.rfl

end Cert.KernelIdeal.RowMax

end
-- ==== Proof.Region.lean ====
/-
  The region's result array: row R of the [8192, 1] array ends at the maximum, over all 8192 rows cc of the right
  array B (as the region finds it), of the inner product of row R of the left array A with row cc of B.

  The accumulator's invariant (Accum) holds after every grid point, by induction on the point through the three
  control cases; at the last column tile of each row tile the block written back is the lane maximum of the
  accumulator, that is the row maxima of rows (t / 8)·2048 …; the four such blocks cover the array.
-/
import proofs.«124851_j31258771980987_2_alg».proof.Proof.Pieces
import proofs.«124851_j31258771980987_2_alg».proof.Proof.Blocks

noncomputable section

namespace Cert.KernelIdeal.RowMax

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (Arr sim rowMax)

variable (m : (ℓ : Loc nD τ sig) → Buf (Elt Ideal) ℓ)

/-- The left array as the region finds it. -/
abbrev arrA (c : Dev nD) : Arr := V m c main_v6
/-- The right array as the region finds it. -/
abbrev arrB (c : Dev nD) : Arr := V m c main_v9

/-- After every grid point the carried accumulator satisfies the invariant. -/
theorem acc_inv (c : Dev nD) : ∀ (n : ℕ) (h : n < cfg0.N), AccInv (arrA m c) (arrB m c) n (outsAt0 m c n h).2
  | 0, h => by
    rw [outsAt0_A m c ⟨0, h⟩ rfl (by dsimp only; omega)]
    dsimp only
    rw [acc_first]
    exact accInv_first _ _ 0 rfl _ _ (fun r k => lhsBlock_apply m c ⟨0, h⟩ r k) (fun cc k => rhsBlock_apply m c ⟨0, h⟩ cc k)
  | n + 1, h => by
    by_cases h0 : (n + 1) % 8 = 0
    · rw [outsAt0_A m c ⟨n + 1, h⟩ h0 (by dsimp only; omega)]
      dsimp only
      rw [acc_first]
      exact accInv_first _ _ (n + 1) h0 _ _ (fun r k => lhsBlock_apply m c ⟨n + 1, h⟩ r k) (fun cc k => rhsBlock_apply m c ⟨n + 1, h⟩ cc k)
    · by_cases h1 : (n + 1) % 8 = 7
      · rw [outsAt0_C m c ⟨n + 1, h⟩ h0 h1]
        dsimp only
        rw [acc_last]
        exact accInv_next _ _ n h0 _ _ (fun r k => lhsBlock_apply m c ⟨n + 1, h⟩ r k) (fun cc k => rhsBlock_apply m c ⟨n + 1, h⟩ cc k)
          _ (acc_inv c n (Nat.lt_of_succ_lt h))
      · rw [outsAt0_B m c ⟨n + 1, h⟩ h0 h1]
        dsimp only
        rw [acc_middle]
        exact accInv_next _ _ n h0 _ _ (fun r k => lhsBlock_apply m c ⟨n + 1, h⟩ r k) (fun cc k => rhsBlock_apply m c ⟨n + 1, h⟩ cc k)
          _ (acc_inv c n (Nat.lt_of_succ_lt h))

/-- At a last column tile the output block is the lane maximum of the accumulator the point leaves. -/
theorem out_of_acc (c : Dev nD) (t : Fin cfg0.N) (h0 : ¬t.val % 8 = 0) (h7 : t.val % 8 = 7) :
    (outsAt0 m c t.val t.isLt).1 = k0_pay3 (outsAt0 m c t.val t.isLt).2 := by
  rw [outsAt0_C m c t h0 h7]
  dsimp only
  rw [out_last, acc_last]

/-- The region's result array. -/
def rowMaxArr (c : Dev nD) : Buf (Elt Ideal) ((c : Thread nD τ).loc main_v10) :=
  fun i => rowMax (arrA m c) (arrB m c) (i 0)

theorem rowMaxArr_apply (c : Dev nD) (i : S8192x1.Idx) : rowMaxArr m c i = rowMax (arrA m c) (arrB m c) (i 0) := rfl

/-- At a last column tile, the output block at row r is the row maximum of array row (t / 8)·2048 + r. -/
theorem out_apply (c : Dev nD) (t : Fin cfg0.N) (h7 : t.val % 8 = 7) (r : Fin 2048) (u : Fin 1) :
    (outsAt0 m c t.val t.isLt).1 (ix2 r u) = rowMax (arrA m c) (arrB m c) (rowAt t.val r) := by
  rw [out_of_acc m c t (by omega) h7]
  exact final_of_accInv _ _ t.val h7 _ (acc_inv m c t.val t.isLt) r u

/-- WHAT A FLUSHING POINT WRITES BACK is its block of the row maxima. -/
theorem flushed_eq (c : Dev nD) (t : Fin cfg0.N) (hf : (cfg0.win 2).flush t = true) :
    (dats m 0 c).flushed 2 t = ((cfg0.win 2).blk t).view.read (Elt Ideal) (rowMaxArr m c) := by
  have h7 : t.val % 8 = 7 := (flush0_2 t).mp hf
  have hi := idx_out t
  have ht := lt32 t
  have key := out_apply m c t h7
  show (cfg0.win 2).cut (grid0.coords t) ((dats m 0 c).after 2 t) = _
  rw [after0_2]
  generalize (outsAt0 m c t.val t.isLt).1 = P at key ⊢
  generalize hG : rowMaxArr m c = G
  have keyG : ∀ (r : Fin 2048) (u : Fin 1) (i : S8192x1.Idx), (i 0).val = t.val / 8 * 2048 + r.val → P (ix2 r u) = G i := by
    intro r u i hi0
    rw [key r u, ← hG, rowMaxArr_apply]
    congr 1
    apply Fin.ext
    show t.val / 8 % 4 * 2048 + r.val = (i 0).val
    omega
  clear key hG
  funext j
  rw [View.read_apply]
  show P j = G (((cfg0.win 2).blk t).view.emb j)
  have hj : (j : S2048x1.Idx) = ix2 (j 0) (j 1) := eq_ix2 j
  refine (congrArg P hj).trans (keyG (j 0) (j 1) _ ?_)
  show win0_2.index t (0 : Fin 2) * 2048 + 1 * (j 0).val = t.val / 8 * 2048 + (j 0).val
  rw [hi.1]; omega

/-- After the region the result array holds the row maxima: the four flushed blocks cover it. -/
theorem arrAt_out (c : Dev nD) : (dats m 0 c).arrAt 2 cfg0.N = rowMaxArr m c :=
  (dats m 0 c).arrAt_eq_of_cover 2 (rowMaxArr m c) (flushed_eq m c) fun i => by
    have hi0 : (i 0).val < 8192 := (i 0).isLt
    have hi1 : (i 1).val < 1 := (i 1).isLt
    have hN : cfg0.N = 32 := N_0
    let t : Fin cfg0.N := ⟨(i 0).val / 2048 * 8 + 7, by omega⟩
    have htv : t.val = (i 0).val / 2048 * 8 + 7 := rfl
    have hx := idx_out t
    refine ⟨t, (flush0_2 t).mpr (by omega), ?_⟩
    rw [mem_outBlock]
    intro a
    match a with
    | ⟨0, _⟩ => show win0_2.index t (0 : Fin 2) * 2048 ≤ (i 0).val ∧ (i 0).val < win0_2.index t (0 : Fin 2) * 2048 + 2048; rw [hx.1]; omega
    | ⟨1, _⟩ => show win0_2.index t (1 : Fin 2) * 1 ≤ (i 1).val ∧ (i 1).val < win0_2.index t (1 : Fin 2) * 1 + 1; rw [hx.2]; omega

end Cert.KernelIdeal.RowMax

end
-- ==== Proof.RefSide.lean ====
/-
  The reference, stage by stage, is the specification's `refOut`: the floored row norms (a [8192, 1] column), the
  two arrays divided by them, their product contracted over the 768 features, and the row-wise maximum from `-∞`.
-/
import proofs.«124851_j31258771980987_2_alg».proof.Proof.Gen.ReferenceIdeal.Read
import proofs.«124851_j31258771980987_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Finset
open Cert.Spec (Arr nrm unitRows sim rowMax refOut)

theorem idx_row0 (i : Fin 8192) (u : Fin 1) (k : Fin 768) : idx_main_call0_v1 (idx_main_call0_v2 (ix2 i u)) k = ix2 i k :=
  funext fun a => Fin.ext (by match a with | ⟨0, _⟩ => rfl | ⟨1, _⟩ => rfl)
theorem idx_row1 (i : Fin 8192) (u : Fin 1) (k : Fin 768) : idx_main_call1_v1 (idx_main_call1_v2 (ix2 i u)) k = ix2 i k :=
  funext fun a => Fin.ext (by match a with | ⟨0, _⟩ => rfl | ⟨1, _⟩ => rfl)
theorem idx_col6 (r : Fin 8192) (k : Fin 768) : idx_main_v6 (ix2 r k) = ix2 r (0 : Fin 1) :=
  funext fun a => Fin.ext (by match a with | ⟨0, _⟩ => rfl | ⟨1, _⟩ => rfl)
theorem idx_col8 (r : Fin 8192) (k : Fin 768) : idx_main_v8 (ix2 r k) = ix2 r (0 : Fin 1) :=
  funext fun a => Fin.ext (by match a with | ⟨0, _⟩ => rfl | ⟨1, _⟩ => rfl)
theorem idx_l (r cc : Fin 8192) (k : Fin 768) : lidx_main_v10 (ix2 r cc) k = ix2 r k :=
  funext fun a => Fin.ext (by match a with | ⟨0, _⟩ => rfl | ⟨1, _⟩ => rfl)
theorem idx_r (r cc : Fin 8192) (k : Fin 768) : ridx_main_v10 (ix2 r cc) k = ix2 cc k :=
  funext fun a => Fin.ext (by match a with | ⟨0, _⟩ => rfl | ⟨1, _⟩ => rfl)

/-- The left array's floored norms, a column. -/
theorem nrm0_apply (x : Arr) (i : Fin 8192) (u : Fin 1) : val_main_v2 (F := Ideal) x (ix2 i u) = nrm x i := by
  rw [val_main_v2_apply, val_main_v0_apply, val_main_call0_v2_apply, val_main_call0_v1_apply, val_main_v1_apply,
    val_main_cst_apply, val_main_call0_cst_apply]
  simp only [val_main_call0_v0_apply, idx_row0, Ideal.maximumf_def, Ideal.hostUnary_sqrt_def, Ideal.mulf_def, Ideal.ofBits_def]
  rfl

/-- The right array's floored norms, a column. -/
theorem nrm1_apply (x : Arr) (i : Fin 8192) (u : Fin 1) : val_main_v5 (F := Ideal) x (ix2 i u) = nrm x i := by
  rw [val_main_v5_apply, val_main_v3_apply, val_main_call1_v2_apply, val_main_call1_v1_apply, val_main_v4_apply,
    val_main_cst_0_apply, val_main_call1_cst_apply]
  simp only [val_main_call1_v0_apply, idx_row1, Ideal.maximumf_def, Ideal.hostUnary_sqrt_def, Ideal.mulf_def, Ideal.ofBits_def]
  rfl

/-- The left array divided by its floored row norms. -/
theorem unitL_apply (x : Arr) (r : Fin 8192) (k : Fin 768) : val_main_v7 (F := Ideal) x (ix2 r k) = unitRows x (ix2 r k) := by
  rw [val_main_v7_apply, val_main_v6_apply, idx_col6, nrm0_apply]
  rfl

/-- The right array divided by its floored row norms. -/
theorem unitR_apply (x : Arr) (cc : Fin 8192) (k : Fin 768) : val_main_v9 (F := Ideal) x (ix2 cc k) = unitRows x (ix2 cc k) := by
  rw [val_main_v9_apply, val_main_v8_apply, idx_col8, nrm1_apply]
  rfl

/-- The cosine matrix at (r, cc). -/
theorem cos_apply (x0 x1 : Arr) (r cc : Fin 8192) :
    val_main_v10 (F := Ideal) x0 x1 (ix2 r cc) = sim (unitRows x0) (unitRows x1) r cc := by
  rw [val_main_v10_apply]
  unfold sim
  refine Finset.sum_congr rfl fun k _ => ?_
  rw [idx_l, idx_r, unitL_apply, unitR_apply]

theorem reduces_rows : S8192x8192.Reduces [1] S8192 := by decide

/-- THE REFERENCE'S RESULT is `refOut`. -/
theorem result_eq (x0 x1 : Arr) : val_main_v11 (F := Ideal) x0 x1 = refOut x0 x1 := by
  funext j
  unfold val_main_v11
  rw [Host.reduce_eq_fold_single FloatOps.maximumf _ _ reducesTo_S8192x8192_S8192_d1 reduces_rows h_S_ j]
  show (univ : Finset (Fin 8192)).fold max (Ideal.ofBits .f32 0xFF800000#32) _ = rowMax (unitRows x0) (unitRows x1) (j 0)
  rw [Cert.Consts.ofBits_neg_inf]
  unfold rowMax
  refine congrArg (fun f => (univ : Finset (Fin 8192)).fold max ⊥ f) (funext fun cc => ?_)
  refine Eq.trans (congrArg (val_main_v10 (F := Ideal) x0 x1) (funext fun a => Fin.ext ?_)) (cos_apply x0 x1 (j 0) cc)
  match a with
  | ⟨0, _⟩ => rfl
  | ⟨1, _⟩ => rfl

end Cert.ReferenceIdeal.RefValue

end
-- ==== Proof.LibColumnVector.lean ====
/-
  A column [a, 1] recast as a vector [a], read at an index: entry i of the vector is entry (i, 0) of the column
  (a recast keeps the row-major position, and the unit axis contributes nothing to it).  The counterpart of the
  vector-to-column recast [a] -> [a, 1].
-/
import Idealize.ShloMosaic.Lib.Pipeline.Value
import Idealize.ShloMosaic.Lib.ValueIdx

namespace Cert.LibColumnVector

open Idealize.ShloMosaic Idealize.ShloMosaic.ValueIdx

variable {α : Type}

/-- An [a, 1] column recast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnVector
-- ==== Proof.HostSide.lean ====
/-
  The host operations around the region, and the kernel program's run read as a value.

  Before the region: the left operand is the first argument itself (a change of float format is the identity on
  the extended reals), the right operand is the second argument with its rows divided by their floored norms, and
  the vector `main_v2` holds the first argument's floored row norms.  After the region: the [8192, 1] array of row
  maxima is recast as a vector and divided by `main_v2`.  So the program's result is the specification's `kernelOut`.
-/
import proofs.«124851_j31258771980987_2_alg».proof.Proof.Region
import proofs.«124851_j31258771980987_2_alg».proof.Proof.RefSide
import proofs.«124851_j31258771980987_2_alg».proof.Proof.LibColumnVector
import Idealize.ShloMosaic.Lib.StableHlo.Run

noncomputable section

namespace Cert.KernelIdeal.RowMax

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.Spec (Arr nrm unitRows sim rowMax kernelOut)

variable (m : (ℓ : Loc nD τ sig) → Buf (Elt Ideal) ℓ) (ρ : Dev nD → PrngReg)

/-- The first argument, as an array of extended reals. -/
abbrev argX (c : Dev nD) : Arr := m ((c : Thread nD τ).loc main_arg0)
/-- The second argument. -/
abbrev argY (c : Dev nD) : Arr := m ((c : Thread nD τ).loc main_arg1)

/-- The region finds the first argument as its left operand. -/
theorem found_lhs (c : Dev nD) : arrA m c = argX m c := by
  show (V m c main_v6 : Arr) = _
  dsimp only [V, V0]
  simp only [hostOps0, hostOps0_1, hostOps0_2, hostOps0_3, List.flatten_cons, List.flatten_nil, List.append_nil, List.cons_append, List.nil_append]
  after_results
  rfl

/-- The region finds, as its right operand, the second argument with its rows divided by their floored norms. -/
theorem found_rhs (c : Dev nD) : arrB m c = unitRows (argY m c) := by
  have e : (V m c main_v9 : Arr) = Cert.ReferenceIdeal.Read.val_main_v9 (F := Ideal) (argY m c) := by
    dsimp only [V, V0]
    simp only [hostOps0, hostOps0_1, hostOps0_2, hostOps0_3, List.flatten_cons, List.flatten_nil, List.append_nil, List.cons_append, List.nil_append]
    after_results
    rfl
  show (V m c main_v9 : Arr) = _
  rw [e]
  funext j
  obtain ⟨cc, k, rfl⟩ : ∃ (cc : Fin 8192) (k : Fin 768), j = ix2 cc k := ⟨j 0, j 1, eq_ix2 j⟩
  exact Cert.ReferenceIdeal.RefValue.unitR_apply _ cc k

theorem idx_sumRow (i : Fin 8192) (k : Fin 768) : Cert.ReferenceIdeal.Read.idx_main_call0_v1 (ix1 i) k = ix2 i k :=
  funext fun a => Fin.ext (by match a with | ⟨0, _⟩ => rfl | ⟨1, _⟩ => rfl)

/-- `main_v2` holds the first argument's floored row norms. -/
theorem found_nrm (c : Dev nD) (i : Fin 8192) : (V m c main_v2 : S8192.Idx → EReal) (ix1 i) = nrm (argX m c) i := by
  have e : (V m c main_v2 : S8192.Idx → EReal)
      = maximumf (F := Ideal) (Host.sqrt (F := Ideal) (Cert.ReferenceIdeal.Read.val_main_call0_v1 (F := Ideal) (argX m c)))
          (broadcastInDim S8192 ![] bcast_S_S8192 (constant (F := Ideal) S_ .f32 0x322BCC77#32)) := by
    dsimp only [V, V0]
    simp only [hostOps0, hostOps0_1, hostOps0_2, hostOps0_3, List.flatten_cons, List.flatten_nil, List.append_nil, List.cons_append, List.nil_append]
    after_results
    rfl
  rw [e]
  refine (maximumf_apply (s := S8192) (φ := .f32) _ _ (ix1 i)).trans ?_
  show max (Ideal.sqrt (Cert.ReferenceIdeal.Read.val_main_call0_v1 (F := Ideal) (argX m c) (ix1 i))) _ = _
  rw [Cert.ReferenceIdeal.Read.val_main_call0_v1_apply, broadcastInDim_apply _ bcast_S_S8192 _ (ix1 i) ix0 (fun a => a.elim0)]
  simp only [Cert.ReferenceIdeal.Read.val_main_call0_v0_apply, Cert.ReferenceIdeal.Read.val_main_call0_cst_apply, idx_sumRow,
    Ideal.mulf_def, Ideal.ofBits_def]
  rfl

/-- THE PROGRAM'S RESULT after the host tail is `kernelOut` of the two arguments. -/
theorem tail_eq (c : Dev nD) :
    Pipeline.afterTail₀ cfgs (dats m) 0 (V0 m) [hostOps1] c main_v12 = kernelOut (argX m c) (argY m c) := by
  unfold Pipeline.afterTail₀
  show StableHlo.after hostOps1 _ (Proc.devRef .tc main_v12) = _
  after_results
  rw [Pipeline.withArrays_arr spec0 launch0.win.arr_inj c _ _ 2,
    Pipeline.withArrays_of_ne _ c (V0 m c) _ main_v2 (by exact (by decide : ∀ w, Pipeline.arrRef spec0 w ≠ main_v2))]
  funext j
  obtain ⟨i, rfl⟩ : ∃ i : Fin 8192, j = ix1 i := ⟨j 0, eq_ix1 j⟩
  show Ideal.div (shapeCast S8192 ((dats m 0 c).arrAt 2 cfg0.N) shapeCasts_S8192x1_S8192 (ix1 i)) ((V m c main_v2 : S8192.Idx → EReal) (ix1 i)) = _
  rw [Cert.LibColumnVector.shapeCast_a1_a_apply, found_nrm, arrAt_out]
  show Ideal.div (rowMax (arrA m c) (arrB m c) i) _ = _
  rw [found_lhs, found_rhs]
  rfl

/-- The run, read: the result at `kernelOut`, the arguments unchanged. -/
theorem run : θ_run defs (onTc (τ := τ) (main (F := Ideal))) ⟨m, fun _ => 0, ρ⟩ fun r => ∀ c : Dev nD,
      r.2.mem ((c : Thread nD τ).loc main_v12) = kernelOut (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RowMax

end
-- ==== Proof.lean ====
/-
  One-sided chamfer of cosine similarities: for x, y : [8192, 768],
      out[i] = max_j ⟨x_i, y_j⟩ / (max(‖x_i‖, ε) · max(‖y_j‖, ε)).

  The kernel's program divides the rows of y by their floored norms, takes the row maxima of x · (y / ny)ᵀ tile by
  tile (a running maximum over eight column tiles, kept lane-wise in a [2048, 128] accumulator and reduced over the
  lanes at the last tile), and divides row i's maximum by max(‖x_i‖, ε) afterwards.  The reference divides the rows
  of x as well before the product and takes the row maxima of the whole [8192, 8192] cosine matrix.

  On the extended reals every change of float format is the identity, the tiled maximum is the maximum over all
  columns, and since max(‖x_i‖, ε) ≥ ε > 0, dividing by it is multiplying by its inverse, a nonnegative factor other
  than +∞: such a factor distributes over the sums of the inner products and, being monotone, commutes with the
  maximum over the (nonempty) set of columns.  So the two results agree index by index, for all inputs.

  Modules: LibScaledMax (the scaling law), Consts (-∞ and ε), Spec (the common function and the agreement),
  Payload / Pieces / Accum / Blocks / Region (the region's result array), HostSide (the operations around the
  region and the program's run; LibColumnVector, LibKeepdims: two recasts read at an index), RefSide (the reference's stages).
-/
import proofs.«124851_j31258771980987_2_alg».proof.Defs
import proofs.«124851_j31258771980987_2_alg».proof.Proof.Gen.Kernel
import proofs.«124851_j31258771980987_2_alg».proof.Proof.Gen.Kernel.Skeleton
import proofs.«124851_j31258771980987_2_alg».proof.Proof.Gen.Kernel.Launch
import proofs.«124851_j31258771980987_2_alg».proof.Proof.Gen.Kernel.Points
import proofs.«124851_j31258771980987_2_alg».proof.Proof.Gen.Kernel.Frame
import proofs.«124851_j31258771980987_2_alg».proof.Proof.Gen.KernelIdeal
import proofs.«124851_j31258771980987_2_alg».proof.Proof.Gen.KernelIdeal.Skeleton
import proofs.«124851_j31258771980987_2_alg».proof.Proof.Gen.KernelIdeal.Launch
import proofs.«124851_j31258771980987_2_alg».proof.Proof.Gen.KernelIdeal.Points
import proofs.«124851_j31258771980987_2_alg».proof.Proof.Gen.KernelIdeal.Frame
import proofs.«124851_j31258771980987_2_alg».proof.Proof.Gen.ReferenceIdeal
import proofs.«124851_j31258771980987_2_alg».proof.Proof.Gen.ReferenceIdeal.Run
import proofs.«124851_j31258771980987_2_alg».proof.Proof.Gen.ReferenceIdeal.Read
import proofs.«124851_j31258771980987_2_alg».proof.Proof.Gen.Pre_finite_inputs
import proofs.«124851_j31258771980987_2_alg».proof.Proof.HostSide
import proofs.«124851_j31258771980987_2_alg».proof.Proof.RefSide
import proofs.«124851_j31258771980987_2_alg».proof.Proof.Spec
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Both programs end with the same result: the kernel's at the raw row maxima divided by the floored norms, the
    reference's at the row maxima of the cosine matrix, of arguments that agree — one function (Spec). -/
theorem algebraic : Cert.algebraic_KernelIdeal_ReferenceIdeal := by
  intro m ρ m' ρ' _ hagree
  refine ⟨fun c => Cert.Spec.kernelOut (Cert.KernelIdeal.RowMax.argX m c) (Cert.KernelIdeal.RowMax.argY m c),
    Cert.KernelIdeal.RowMax.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  exact (Cert.ReferenceIdeal.RefValue.result_eq _ _).trans (Cert.Spec.kernelOut_eq_refOut _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
